-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x500 : S_.BroadcastsInDim S128x500 (![] : Fin 0 → Fin S128x500.rank)
  reducesTo_S128x500_S_d0_1 : S128x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x1 : S_.BroadcastsInDim S500x1 (![] : Fin 0 → Fin S500x1.rank)
  reducesTo_S500x1_S_d0_1 : S500x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S500x500 .f32) (main_arg9 : FVec F S500 .f32) (main_arg10 : FVec F S500x1 .f32) (main_arg11 : FVec F S1 .f32) (main_v33 : IVec S_ 1) : IVec S_ 1 :=
  let main_v34 : FVec F S500x500 .f32 := Host.absf main_arg8
  let main_cst_12 : FVec F S_ .f32 := constant S_ .f32 0x7F800000#32
  let main_v35 : FVec F S500x500 .f32 := broadcastInDim S500x500 ![] bcast_S_S500x500 main_cst_12
  let main_v36 : IVec S500x500 1 := cmpf .olt main_v34 main_v35
  let main_c_13 : IVec S_ 1 := constantI S_ 1 1#1
  let main_v37 : IVec S_ 1 := (fun x v => Host.reduce IntOp.andi x v reducesTo_S500x500_S_d0_1 h_S_) main_v36 main_c_13
  let main_v38 : IVec S_ 1 := andi main_v33 main_v37
  let main_v39 : FVec F S500 .f32 := Host.absf main_arg9
  let main_cst_14 : FVec F S_ .f32 := constant S_ .f32 0x7F800000#32
  let main_v40 : FVec F S500 .f32 := broadcastInDim S500 ![] bcast_S_S500 main_cst_14
  let main_v41 : IVec S500 1 := cmpf .olt main_v39 main_v40
  let main_c_15 : IVec S_ 1 := constantI S_ 1 1#1
  let main_v42 : IVec S_ 1 := (fun x v => Host.reduce IntOp.andi x v reducesTo_S500_S_d0 h_S_) main_v41 main_c_15
  let main_v43 : IVec S_ 1 := andi main_v38 main_v42
  let main_v44 : FVec F S500x1 .f32 := Host.absf main_arg10
  let main_cst_16 : FVec F S_ .f32 := constant S_ .f32 0x7F800000#32
  let main_v45 : FVec F S500x1 .f32 := broadcastInDim S500x1 ![] bcast_S_S500x1 main_cst_16
  let main_v46 : IVec S500x1 1 := cmpf .olt main_v44 main_v45
  let main_c_17 : IVec S_ 1 := constantI S_ 1 1#1
  let main_v47 : IVec S_ 1 := (fun x v => Host.reduce IntOp.andi x v reducesTo_S500x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S500 .f32) (main_arg6 : FVec F S500x500 .f32) (main_arg7 : FVec F S500 .f32) (main_arg8 : FVec F S500x500 .f32) (main_arg9 : FVec F S500 .f32) (main_arg10 : FVec F S500x1 .f32) (main_arg11 : FVec F S1 .f32) (main_v13 : IVec S_ 1) (main_v16 : IVec S128x500 1) : IVec S_ 1 :=
  let main_c_5 : IVec S_ 1 := constantI S_ 1 1#1
  let main_v17 : IVec S_ 1 := (fun x v => Host.reduce IntOp.andi x v reducesTo_S128x500_S_d0_1 h_S_) main_v16 main_c_5
  let main_v18 : IVec S_ 1 := andi main_v13 main_v17
  let main_v19 : FVec F S500 .f32 := Host.absf main_arg5
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500x500 .f32 := Host.absf main_arg6
  let main_cst_8 : FVec F S_ .f32 := constant S_ .f32 0x7F800000#32
  let main_v25 : FVec F S500x500 .f32 := broadcastInDim S500x500 ![] bcast_S_S500x500 main_cst_8
  let main_v26 : IVec S500x500 1 := cmpf .olt main_v24 main_v25
  let main_c_9 : IVec S_ 1 := constantI S_ 1 1#1
  let main_v27 : IVec S_ 1 := (fun x v => Host.reduce IntOp.andi x v reducesTo_S500x500_S_d0_1 h_S_) main_v26 main_c_9
  let main_v28 : IVec S_ 1 := andi main_v23 main_v27
  let main_v29 : FVec F S500 .f32 := Host.absf main_arg7
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x500 .f32) (main_arg5 : FVec F S500 .f32) (main_arg6 : FVec F S500x500 .f32) (main_arg7 : FVec F S500 .f32) (main_arg8 : FVec F S500x500 .f32) (main_arg9 : FVec F S500 .f32) (main_arg10 : FVec F S500x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x500 .f32 := Host.absf main_arg4
  let main_cst_4 : FVec F S_ .f32 := constant S_ .f32 0x7F800000#32
  let main_v15 : FVec F S128x500 .f32 := broadcastInDim S128x500 ![] bcast_S_S128x500 main_cst_4
  let main_v16 : IVec S128x500 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S2000x128 : Shape := ⟨2, ![2000, 128]⟩
abbrev S2000x1 : Shape := ⟨2, ![2000, 1]⟩
abbrev S1x128 : Shape := ⟨2, ![1, 128]⟩
abbrev S2000x500 : Shape := ⟨2, ![2000, 500]⟩
abbrev S1x500 : Shape := ⟨2, ![1, 500]⟩
abbrev S1x1 : Shape := ⟨2, ![1, 1]⟩

abbrev nBuf : Space → Nat
  | .hbm => 80
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x500, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S500x500, .f32⟩
  | .hbm, ⟨9, _⟩ => ⟨S500, .f32⟩
  | .hbm, ⟨10, _⟩ => ⟨S500x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S50000x128, .f32⟩
  | .hbm, ⟨21, _⟩ => ⟨S50000x128, .bf16⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .bf16⟩
  | .hbm, ⟨67, _⟩ => ⟨S850000x128, .f32⟩
  | .hbm, ⟨68, _⟩ => ⟨S850000x1, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S128x500, .bf16⟩
  | .hbm, ⟨76, _⟩ => ⟨S500x500, .bf16⟩
  | .hbm, ⟨77, _⟩ => ⟨S500x500, .bf16⟩
  | .hbm, ⟨78, _⟩ => ⟨S500x1, .bf16⟩
  | .hbm, ⟨79, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128x500, .bf16⟩
  | .local _ .vmem, ⟨4, _⟩ => ⟨S500, .f32⟩
  | .local _ .vmem, ⟨5, _⟩ => ⟨S500x500, .bf16⟩
  | .local _ .vmem, ⟨6, _⟩ => ⟨S500, .f32⟩
  | .local _ .vmem, ⟨7, _⟩ => ⟨S500x500, .bf16⟩
  | .local _ .vmem, ⟨8, _⟩ => ⟨S500, .f32⟩
  | .local _ .vmem, ⟨9, _⟩ => ⟨S500x1, .bf16⟩
  | .local _ .vmem, ⟨10, _⟩ => ⟨S1, .f32⟩
  | .local _ .vmem, ⟨11, _⟩ => ⟨S2000x1, .f32⟩
  | .local _ .vmem, ⟨12, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x500 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500x500 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500x500 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S500x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bitsLt_bf16_f32 : FTy.bits .bf16 < FTy.bits .f32
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x500_S128x500_0_0 : ∀ a, (![0, 0] : Fin 2 → Nat) a + S128x500.size a ≤ S128x500.size a
  h_S128x500 : 0 < S128x500.numel
  shapeCasts_S128x500_S128x500 : S128x500.ShapeCasts S128x500
  inb_S500_S500_0 : ∀ a, (![0] : Fin 1 → Nat) a + S500.size a ≤ S500.size a
  h_S500 : 0 < S500.numel
  shapeCasts_S500_S1x500 : S500.ShapeCasts S1x500
  broadcasts_S1x500_S2000x500 : S1x500.Broadcasts S2000x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x500_S2000x500_1_0_0_1_n_n_wf : DotDims.WF S2000x128 S128x500 S2000x500 [1] [0] [0] [1] [] []
  dot_S2000x500_S500x500_S2000x500_1_0_0_1_n_n_wf : DotDims.WF S2000x500 S500x500 S2000x500 [1] [0] [0] [1] [] []
  dot_S2000x500_S500x1_S2000x1_1_0_0_1_n_n_wf : DotDims.WF S2000x500 S500x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x500.size a ≤ S128x500.size a
  hwx0_2 : ∀ i : grid0.Coords, EltTy.bits .bf16 = 32 ∨ (Rect.block (s := S128x500) S128x500.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500.size a ≤ S500.size a
  hwx0_3 : ∀ i : grid0.Coords, EltTy.bits .f32 = 32 ∨ (Rect.block (s := S500) S500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500x500.size a ≤ S500x500.size a
  hwx0_4 : ∀ i : grid0.Coords, EltTy.bits .bf16 = 32 ∨ (Rect.block (s := S500x500) S500x500.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500.size a ≤ S500.size a
  hwx0_5 : ∀ i : grid0.Coords, EltTy.bits .f32 = 32 ∨ (Rect.block (s := S500) S500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x500.size a ≤ S500x500.size a
  hwx0_6 : ∀ i : grid0.Coords, EltTy.bits .bf16 = 32 ∨ (Rect.block (s := S500x500) S500x500.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S500x1.size a ≤ S500x1.size a
  hwx0_8 : ∀ i : grid0.Coords, EltTy.bits .bf16 = 32 ∨ (Rect.block (s := S500x1) S500x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S50000x1.size a
  hwx0_10 : ∀ i : grid0.Coords, EltTy.bits .f32 = 32 ∨ (Rect.block (s := S50000x1) S2000x1.size (cc0_transform_10 i) (hinb0_10 i)).WholeWords (EltTy.packing .f32)

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x500_S2000x500_1_0_0_1_n_n : DotDims S2000x128 S128x500 S2000x500 where
  lhsContracting := [1]
  rhsContracting := [0]
  lhsNonContracting := [0]
  rhsNonContracting := [1]
  lhsBatch := []
  rhsBatch := []
  wf := dot_S2000x128_S128x500_S2000x500_1_0_0_1_n_n_wf
def dot_S2000x500_S500x500_S2000x500_1_0_0_1_n_n : DotDims S2000x500 S500x500 S2000x500 where
  lhsContracting := [1]
  rhsContracting := [0]
  lhsNonContracting := [0]
  rhsNonContracting := [1]
  lhsBatch := []
  rhsBatch := []
  wf := dot_S2000x500_S500x500_S2000x500_1_0_0_1_n_n_wf
def dot_S2000x500_S500x1_S2000x1_1_0_0_1_n_n : DotDims S2000x500 S500x1 S2000x1 where
  lhsContracting := [1]
  rhsContracting := [0]
  lhsNonContracting := [0]
  rhsNonContracting := [1]
  lhsBatch := []
  rhsBatch := []
  wf := dot_S2000x500_S500x1_S2000x1_1_0_0_1_n_n_wf

abbrev win0_0 : Pipeline.Window sig grid0 :=
  Pipeline.Window.ofSpec (Memref.whole main_v48) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S128x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S500x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S500x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S500x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v53) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x500 : Shape := ⟨2, ![128, 500]⟩
abbrev S500 : Shape := ⟨1, ![500]⟩
abbrev S500x500 : Shape := ⟨2, ![500, 500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x500 : Shape := ⟨2, ![50000, 500]⟩
abbrev S1x500 : Shape := ⟨2, ![1, 500]⟩
abbrev S50000x1 : Shape := ⟨2, ![50000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x500, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S500x500, .f32⟩
  | .hbm, ⟨9, _⟩ => ⟨S500, .f32⟩
  | .hbm, ⟨10, _⟩ => ⟨S500x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S50000, .i32⟩
  | .hbm, ⟨19, _⟩ => ⟨S850000, .i32⟩
  | .hbm, ⟨20, _⟩ => ⟨S50000x128, .f32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x500, .f32⟩
  | .hbm, ⟨80, _⟩ => ⟨S1x500, .f32⟩
  | .hbm, ⟨81, _⟩ => ⟨S50000x500, .f32⟩
  | .hbm, ⟨82, _⟩ => ⟨S50000x500, .f32⟩
  | .hbm, ⟨83, _⟩ => ⟨S_, .f32⟩
  | .hbm, ⟨84, _⟩ => ⟨S50000x500, .f32⟩
  | .hbm, ⟨85, _⟩ => ⟨S50000x500, .f32⟩
  | .hbm, ⟨86, _⟩ => ⟨S50000x500, .f32⟩
  | .hbm, ⟨87, _⟩ => ⟨S1x500, .f32⟩
  | .hbm, ⟨88, _⟩ => ⟨S50000x500, .f32⟩
  | .hbm, ⟨89, _⟩ => ⟨S50000x500, .f32⟩
  | .hbm, ⟨90, _⟩ => ⟨S_, .f32⟩
  | .hbm, ⟨91, _⟩ => ⟨S50000x500, .f32⟩
  | .hbm, ⟨92, _⟩ => ⟨S50000x500, .f32⟩
  | .hbm, ⟨93, _⟩ => ⟨S50000x500, .f32⟩
  | .hbm, ⟨94, _⟩ => ⟨S1x500, .f32⟩
  | .hbm, ⟨95, _⟩ => ⟨S50000x500, .f32⟩
  | .hbm, ⟨96, _⟩ => ⟨S50000x500, .f32⟩
  | .hbm, ⟨97, _⟩ => ⟨S_, .f32⟩
  | .hbm, ⟨98, _⟩ => ⟨S50000x500, .f32⟩
  | .hbm, ⟨99, _⟩ => ⟨S50000x500, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_cst : Ref sig .tc := ⟨.hbm, 83, rfl⟩
abbrev main_call2_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call4_cst : Ref sig .tc := ⟨.hbm, 97, rfl⟩
abbrev main_call4_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  bcast_S_S50000x500 : S_.BroadcastsInDim S50000x500 (![] : Fin 0 → Fin S50000x500.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x500_S50000x500_1_0_0_1_n_n_wf : DotDims.WF S50000x128 S128x500 S50000x500 [1] [0] [0] [1] [] []
  dot_S50000x500_S500x500_S50000x500_1_0_0_1_n_n_wf : DotDims.WF S50000x500 S500x500 S50000x500 [1] [0] [0] [1] [] []
  dot_S50000x500_S500x1_S50000x1_1_0_0_1_n_n_wf : DotDims.WF S50000x500 S500x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x500_S50000x500_1_0_0_1_n_n : DotDims S50000x128 S128x500 S50000x500 where
  lhsContracting := [1]
  rhsContracting := [0]
  lhsNonContracting := [0]
  rhsNonContracting := [1]
  lhsBatch := []
  rhsBatch := []
  wf := dot_S50000x128_S128x500_S50000x500_1_0_0_1_n_n_wf
def dot_S50000x500_S500x500_S50000x500_1_0_0_1_n_n : DotDims S50000x500 S500x500 S50000x500 where
  lhsContracting := [1]
  rhsContracting := [0]
  lhsNonContracting := [0]
  rhsNonContracting := [1]
  lhsBatch := []
  rhsBatch := []
  wf := dot_S50000x500_S500x500_S50000x500_1_0_0_1_n_n_wf
def dot_S50000x500_S500x1_S50000x1_1_0_0_1_n_n : DotDims S50000x500 S500x1 S50000x1 where
  lhsContracting := [1]
  rhsContracting := [0]
  lhsNonContracting := [0]
  rhsNonContracting := [1]
  lhsBatch := []
  rhsBatch := []
  wf := dot_S50000x500_S500x1_S50000x1_1_0_0_1_n_n_wf

class Facts : Prop extends Facts₀ where

variable [Facts]
-- ==== Proof.MlpSpec.lean ====
/-
  The dense stack this certificate is about, one node at a time.

  A node's features are a row a : Fin 128 → [-∞, +∞] (the aggregated messages of its neighbours). The stack adds the
  convolution's bias and rectifies, passes the result through three affine layers 128 → 500 → 500 → 500, each
  followed by the rectifier x ↦ max x 0, and ends with one affine read-out 500 → 1:

      h₀ j = max (a j + c j) 0
      hₗ₊₁ k = max (Σ j, hₗ j · Wₗ₊₁ (j, k) + bₗ₊₁ k) 0          (l = 0, 1, 2)
      out   = Σ j, h₃ j · Wₒ (j, 0) + bₒ 0

  Every sum is a finite sum of extended reals in Mathlib's conventions; no law beyond the definitions is used
  anywhere below, so no entry needs to be finite: both programs compute exactly these sums, in this order of
  operations, and differ only in how the rows are cut into blocks and in which number format carries them.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The first step on a node's row: add the convolution's bias, then rectify. -/
def rect0 (cb : (⟨1, ![128]⟩ : Shape).Idx → EReal) (a : Fin 128 → EReal) : Fin 128 → EReal :=
  fun j => max (a j + cb (ix1 j)) 0

/-- One affine layer followed by the rectifier: output feature k is max (Σ j, h j · W (j, k) + b k) 0. -/
def layer {n p : ℕ} (W : (⟨2, ![n, p]⟩ : Shape).Idx → EReal) (b : (⟨1, ![p]⟩ : Shape).Idx → EReal) (h : Fin n → EReal) :
    Fin p → EReal :=
  fun k => max ((∑ j : Fin n, h j * W (ix2 j k)) + b (ix1 k)) 0

/-- The read-out: Σ j, h j · Wₒ (j, 0) + bₒ 0, no rectifier. -/
def readout {n : ℕ} (Wo : (⟨2, ![n, 1]⟩ : Shape).Idx → EReal) (bo : (⟨1, ![1]⟩ : Shape).Idx → EReal) (h : Fin n → EReal) : EReal :=
  (∑ j : Fin n, h j * Wo (ix2 j (0 : Fin 1))) + bo (ix1 (0 : Fin 1))

/-- The whole stack on one node's row. -/
def row (cb : (⟨1, ![128]⟩ : Shape).Idx → EReal)
    (W1 : (⟨2, ![128, 500]⟩ : Shape).Idx → EReal) (b1 : (⟨1, ![500]⟩ : Shape).Idx → EReal)
    (W2 : (⟨2, ![500, 500]⟩ : Shape).Idx → EReal) (b2 : (⟨1, ![500]⟩ : Shape).Idx → EReal)
    (W3 : (⟨2, ![500, 500]⟩ : Shape).Idx → EReal) (b3 : (⟨1, ![500]⟩ : Shape).Idx → EReal)
    (Wo : (⟨2, ![500, 1]⟩ : Shape).Idx → EReal) (bo : (⟨1, ![1]⟩ : Shape).Idx → EReal)
    (a : Fin 128 → EReal) : EReal :=
  readout Wo bo (layer W3 b3 (layer W2 b2 (layer W1 b1 (rect0 cb a))))

/-- The stack over all 50000 nodes: entry (r, 0) of the result is the stack on row r of the aggregated features A. -/
def out (A : (⟨2, ![50000, 128]⟩ : Shape).Idx → EReal) (cb : (⟨1, ![128]⟩ : Shape).Idx → EReal)
    (W1 : (⟨2, ![128, 500]⟩ : Shape).Idx → EReal) (b1 : (⟨1, ![500]⟩ : Shape).Idx → EReal)
    (W2 : (⟨2, ![500, 500]⟩ : Shape).Idx → EReal) (b2 : (⟨1, ![500]⟩ : Shape).Idx → EReal)
    (W3 : (⟨2, ![500, 500]⟩ : Shape).Idx → EReal) (b3 : (⟨1, ![500]⟩ : Shape).Idx → EReal)
    (Wo : (⟨2, ![500, 1]⟩ : Shape).Idx → EReal) (bo : (⟨1, ![1]⟩ : Shape).Idx → EReal) :
    (⟨2, ![50000, 1]⟩ : Shape).Idx → EReal :=
  fun i => row cb W1 b1 W2 b2 W3 b3 Wo bo (fun j => A (ix2 (i 0) j))

end Cert.Mlp

end
-- ==== Proof.RefLayers.lean ====
/-
  The reference's dense stack, read entry by entry.

  After the graph convolution's aggregation A (a scatter-add of scaled, gathered rows; kept here as ONE array, never opened),
  the reference adds the bias spread over the rows, rectifies, and applies three times a general dot product, a bias spread
  over the rows and the rectifier, then the read-out product and its bias. Each general dot product at (r, k) is the sum over
  the contraction's coordinate of left (r, j) · right (j, k), each spread bias reads the vector at the column, and the
  rectifier's zero is the real number 0. So entry (r, 0) of the result is the stack (Cert.Mlp.row) on row r of A.
-/
import proofs.«166732_j85298050499264_2_alg».proof.Proof.RefReadPatched
import proofs.«166732_j85298050499264_2_alg».proof.Proof.MlpSpec

noncomputable section

namespace Cert.ReferenceIdeal.Hand

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal))
  (x3 : (⟨S128, .f32⟩ : BufTy).Contents (Elt Ideal)) (x4 : (⟨S128x500, .f32⟩ : BufTy).Contents (Elt Ideal)) (x5 : (⟨S500, .f32⟩ : BufTy).Contents (Elt Ideal))
  (x6 : (⟨S500x500, .f32⟩ : BufTy).Contents (Elt Ideal)) (x7 : (⟨S500, .f32⟩ : BufTy).Contents (Elt Ideal)) (x8 : (⟨S500x500, .f32⟩ : BufTy).Contents (Elt Ideal))
  (x9 : (⟨S500, .f32⟩ : BufTy).Contents (Elt Ideal)) (x10 : (⟨S500x1, .f32⟩ : BufTy).Contents (Elt Ideal)) (x11 : (⟨S1, .f32⟩ : BufTy).Contents (Elt Ideal))

/-- The aggregated features with the bias added, rectified, at (r, j). -/
theorem relu0_apply (r : Fin 50000) (j : Fin 128) :
    val_main_v50 (F := Ideal) x0 x1 x2 x3 (ix2 r j) = Mlp.rect0 x3 (fun j => val_main_v46 (F := Ideal) x0 x1 x2 (ix2 r j)) j := by
  rw [val_main_v50_apply, val_main_v49_apply, val_main_v48_apply, val_main_v47_apply, val_main_call1_v0_apply, val_main_call1_cst_apply]
  have e : idx_main_v47 (idx_main_v48 (ix2 r j)) = ix1 j := funext fun a => Fin.ext (by match a with | ⟨0, _⟩ => rfl)
  rw [e]
  simp only [Ideal.maximumf_def, Ideal.addf_def, Ideal.ofBits_def, Ideal.ofBits_zero_f32]
  rfl

theorem relu0_row (r : Fin 50000) :
    (fun j => val_main_v50 (F := Ideal) x0 x1 x2 x3 (ix2 r j)) = Mlp.rect0 x3 (fun j => val_main_v46 (F := Ideal) x0 x1 x2 (ix2 r j)) :=
  funext fun j => relu0_apply x0 x1 x2 x3 r j

/-- The first hidden layer at (r, k). -/
theorem layer1_apply (r : Fin 50000) (k : Fin 500) :
    val_main_v55 (F := Ideal) x0 x1 x2 x3 x4 x5 (ix2 r k) = Mlp.layer x4 x5 (fun j => val_main_v50 (F := Ideal) x0 x1 x2 x3 (ix2 r j)) k := by
  rw [val_main_v55_apply, val_main_v54_apply, val_main_v51_apply, val_main_v53_apply, val_main_v52_apply, val_main_call2_v0_apply, val_main_call2_cst_apply]
  have e : idx_main_v52 (idx_main_v53 (ix2 r k)) = ix1 k := funext fun a => Fin.ext (by match a with | ⟨0, _⟩ => rfl)
  have el : ∀ j : Fin 128, lidx_main_v51 (ix2 r k) j = ix2 r j := fun j => funext fun a => Fin.ext (by match a with | ⟨0, _⟩ => rfl | ⟨1, _⟩ => rfl)
  have er : ∀ j : Fin 128, ridx_main_v51 (ix2 r k) j = ix2 j k := fun j => funext fun a => Fin.ext (by match a with | ⟨0, _⟩ => rfl | ⟨1, _⟩ => rfl)
  simp only [e, el, er, Ideal.maximumf_def, Ideal.addf_def, Ideal.ofBits_def, Ideal.ofBits_zero_f32]
  rfl

theorem layer1_row (r : Fin 50000) :
    (fun k => val_main_v55 (F := Ideal) x0 x1 x2 x3 x4 x5 (ix2 r k))
      = Mlp.layer x4 x5 (Mlp.rect0 x3 (fun j => val_main_v46 (F := Ideal) x0 x1 x2 (ix2 r j))) :=
  funext fun k => (layer1_apply x0 x1 x2 x3 x4 x5 r k).trans (by rw [relu0_row])

/-- The second hidden layer at (r, k). -/
theorem layer2_apply (r : Fin 50000) (k : Fin 500) :
    val_main_v60 (F := Ideal) x0 x1 x2 x3 x4 x5 x6 x7 (ix2 r k) = Mlp.layer x6 x7 (fun j => val_main_v55 (F := Ideal) x0 x1 x2 x3 x4 x5 (ix2 r j)) k := by
  rw [val_main_v60_apply, val_main_v59_apply, val_main_v56_apply, val_main_v58_apply, val_main_v57_apply, val_main_call3_v0_apply, val_main_call3_cst_apply]
  have e : idx_main_v57 (idx_main_v58 (ix2 r k)) = ix1 k := funext fun a => Fin.ext (by match a with | ⟨0, _⟩ => rfl)
  have el : ∀ j : Fin 500, lidx_main_v56 (ix2 r k) j = ix2 r j := fun j => funext fun a => Fin.ext (by match a with | ⟨0, _⟩ => rfl | ⟨1, _⟩ => rfl)
  have er : ∀ j : Fin 500, ridx_main_v56 (ix2 r k) j = ix2 j k := fun j => funext fun a => Fin.ext (by match a with | ⟨0, _⟩ => rfl | ⟨1, _⟩ => rfl)
  simp only [e, el, er, Ideal.maximumf_def, Ideal.addf_def, Ideal.ofBits_def, Ideal.ofBits_zero_f32]
  rfl

theorem layer2_row (r : Fin 50000) :
    (fun k => val_main_v60 (F := Ideal) x0 x1 x2 x3 x4 x5 x6 x7 (ix2 r k))
      = Mlp.layer x6 x7 (Mlp.layer x4 x5 (Mlp.rect0 x3 (fun j => val_main_v46 (F := Ideal) x0 x1 x2 (ix2 r j)))) :=
  funext fun k => (layer2_apply x0 x1 x2 x3 x4 x5 x6 x7 r k).trans (by rw [layer1_row])

/-- The third hidden layer at (r, k). -/
theorem layer3_apply (r : Fin 50000) (k : Fin 500) :
    val_main_v65 (F := Ideal) x0 x1 x2 x3 x4 x5 x6 x7 x8 x9 (ix2 r k) = Mlp.layer x8 x9 (fun j => val_main_v60 (F := Ideal) x0 x1 x2 x3 x4 x5 x6 x7 (ix2 r j)) k := by
  rw [val_main_v65_apply, val_main_v64_apply, val_main_v61_apply, val_main_v63_apply, val_main_v62_apply, val_main_call4_v0_apply, val_main_call4_cst_apply]
  have e : idx_main_v62 (idx_main_v63 (ix2 r k)) = ix1 k := funext fun a => Fin.ext (by match a with | ⟨0, _⟩ => rfl)
  have el : ∀ j : Fin 500, lidx_main_v61 (ix2 r k) j = ix2 r j := fun j => funext fun a => Fin.ext (by match a with | ⟨0, _⟩ => rfl | ⟨1, _⟩ => rfl)
  have er : ∀ j : Fin 500, ridx_main_v61 (ix2 r k) j = ix2 j k := fun j => funext fun a => Fin.ext (by match a with | ⟨0, _⟩ => rfl | ⟨1, _⟩ => rfl)
  simp only [e, el, er, Ideal.maximumf_def, Ideal.addf_def, Ideal.ofBits_def, Ideal.ofBits_zero_f32]
  rfl

theorem layer3_row (r : Fin 50000) :
    (fun k => val_main_v65 (F := Ideal) x0 x1 x2 x3 x4 x5 x6 x7 x8 x9 (ix2 r k))
      = Mlp.layer x8 x9 (Mlp.layer x6 x7 (Mlp.layer x4 x5 (Mlp.rect0 x3 (fun j => val_main_v46 (F := Ideal) x0 x1 x2 (ix2 r j))))) :=
  funext fun k => (layer3_apply x0 x1 x2 x3 x4 x5 x6 x7 x8 x9 r k).trans (by rw [layer2_row])

/-- The reference's result is the stack applied to each row of the aggregated features. -/
theorem result_eq :
    val_main_v69 (F := Ideal) x0 x1 x2 x3 x4 x5 x6 x7 x8 x9 x10 x11
      = Mlp.out (val_main_v46 (F := Ideal) x0 x1 x2) x3 x4 x5 x6 x7 x8 x9 x10 x11 := by
  funext i
  obtain ⟨r, u, rfl⟩ : ∃ (r : Fin 50000) (u : Fin 1), i = ix2 r u := ⟨i 0, i 1, eq_ix2 i⟩
  obtain rfl : u = 0 := Subsingleton.elim _ _
  rw [val_main_v69_apply, val_main_v66_apply, val_main_v68_apply, val_main_v67_apply]
  have e : idx_main_v67 (idx_main_v68 (ix2 r (0 : Fin 1))) = ix1 (0 : Fin 1) := funext fun a => Fin.ext (by match a with | ⟨0, _⟩ => rfl)
  have el : ∀ j : Fin 500, lidx_main_v66 (ix2 r (0 : Fin 1)) j = ix2 r j := fun j => funext fun a => Fin.ext (by match a with | ⟨0, _⟩ => rfl | ⟨1, _⟩ => rfl)
  have er : ∀ j : Fin 500, ridx_main_v66 (ix2 r (0 : Fin 1)) j = ix2 j (0 : Fin 1) := fun j => funext fun a => Fin.ext (by match a with | ⟨0, _⟩ => rfl | ⟨1, _⟩ => rfl)
  simp only [e, el, er, Ideal.addf_def]
  show Mlp.readout x10 x11 (fun k => val_main_v65 (F := Ideal) x0 x1 x2 x3 x4 x5 x6 x7 x8 x9 (ix2 r k)) = _
  rw [layer3_row]
  rfl

end Cert.ReferenceIdeal.Hand

end
-- ==== Proof.KernelAggDefs.lean ====
/-
  The graph convolution's aggregation as the kernel's program computes it before the fused stack, as ONE function of the
  node features x, the edge list e and the convolution's weights W.

  The edge list's two rows, each followed by 0 … 49999 (the self-loops), are the sources and the targets of 850000
  messages. A node's degree is the number of messages it is the target of; its normaliser is 1/√(max (degree, 1e-12)) where
  the degree is positive and 0 elsewhere. A message carries the source's row of x·W (narrowed to the short format before it is
  gathered and widened after), scaled by the product of its two end points' normalisers; the aggregation sums the messages
  into their targets. An index that is negative is wrapped by adding 50000 before each gather, as the program does.
  Each definition below is the program's own operations for that stage, in the program's spelling.
-/
import proofs.«166732_j85298050499264_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

section Stages

variable {F : FTy → Type} [FloatOps F]

/-- Row `o` of the edge list followed by the self-loops 0 … 49999. -/
def endsK (o : Nat) (hs : S2x800000.Slices ![o, 0] S1x800000) (e : (⟨S2x800000, .i32⟩ : BufTy).Contents (Elt F)) : (⟨S850000, .i32⟩ : BufTy).Contents (Elt F) :=
  concatenate S850000 0 [⟨S800000, (shapeCast _ (extractStridedSlice S1x800000 ![o, 0] e hs) shapeCasts_S1x800000_S800000)⟩, ⟨S50000, (iotaInDim S50000 32 0)⟩] concatenates_S800000_S50000_S850000_d0

/-- The messages' sources. -/
def srcK (e : (⟨S2x800000, .i32⟩ : BufTy).Contents (Elt F)) : (⟨S850000, .i32⟩ : BufTy).Contents (Elt F) := endsK (F := F) 0 slices_S2x800000_S1x800000_0_0 e
/-- The messages' targets. -/
def dstK (e : (⟨S2x800000, .i32⟩ : BufTy).Contents (Elt F)) : (⟨S850000, .i32⟩ : BufTy).Contents (Elt F) := endsK (F := F) 1 slices_S2x800000_S1x800000_1_0 e

/-- A negative index wrapped by adding the number of nodes. -/
def wrapK (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The nodes' degrees: ones summed into the targets. -/
def degK (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 (dstK (F := F) e)) (broadcastInDim S850000 ![] bcast_S_S850000 (constant S_ .f32 0x3F800000#32))

/-- The nodes' normalisers. -/
def dinvK (e : (⟨S2x800000, .i32⟩ : BufTy).Contents (Elt F)) : (⟨S50000, .f32⟩ : BufTy).Contents (Elt F) :=
  select (cmpf (F := F) .ogt (degK (F := F) e) (broadcastInDim S50000 ![] bcast_S_S50000 (constant S_ .f32 0x00000000#32)))
    (Host.rsqrt (maximumf (degK (F := F) e) (broadcastInDim S50000 ![] bcast_S_S50000 (constant S_ .f32 0x2B8CBCCC#32))))
    (broadcastInDim S50000 ![] bcast_S_S50000 (id (constant S_ .f32 0x00000000#32)))

/-- The messages' scales: the product of the two end points' normalisers. -/
def normK (e : (⟨S2x800000, .i32⟩ : BufTy).Contents (Elt F)) : (⟨S850000, .f32⟩ : BufTy).Contents (Elt F) :=
  mulf (Host.gather gather_S50000_S850000x1_S850000_n_0_n_n_0_1_1 (dinvK (F := F) e) (broadcastInDim S850000x1 ![0] bcast_S850000_S850000x1_0 (wrapK (F := F) (srcK (F := F) e))))
    (Host.gather gather_S50000_S850000x1_S850000_n_0_n_n_0_1_1 (dinvK (F := F) e) (broadcastInDim S850000x1 ![0] bcast_S850000_S850000x1_0 (wrapK (F := F) (dstK (F := F) e))))

/-- The messages: the sources' rows of x·W through the short format, scaled. -/
def msgsK (x : (⟨S50000x128, .f32⟩ : BufTy).Contents (Elt F)) (e : (⟨S2x800000, .i32⟩ : BufTy).Contents (Elt F)) (W : (⟨S128x128, .f32⟩ : BufTy).Contents (Elt F)) : (⟨S850000x128, .f32⟩ : BufTy).Contents (Elt F) :=
  mulf (extf .f32 (Host.gather gather_S50000x128_S850000x1_S850000x128_1_0_n_n_0_1_1128
        (truncf .bf16 (Host.dotGeneral dot_S50000x128_S128x128_S50000x128_1_0_0_1_n_n none x W) bitsLt_bf16_f32)
        (broadcastInDim S850000x1 ![0] bcast_S850000_S850000x1_0 (wrapK (F := F) (srcK (F := F) e)))) bitsLt_bf16_f32)
    (broadcastInDim S850000x128 ![0, 1] bcast_S850000x1_S850000x128_0_1 (broadcastInDim S850000x1 ![0] bcast_S850000_S850000x1_0 (normK (F := F) e)))

/-- The aggregation: the messages summed into their targets. -/
def aggK (x : (⟨S50000x128, .f32⟩ : BufTy).Contents (Elt F)) (e : (⟨S2x800000, .i32⟩ : BufTy).Contents (Elt F)) (W : (⟨S128x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 (dstK (F := F) e)) (msgsK (F := F) x e W)

end Stages

end Cert.KernelIdeal.Hand

end
-- ==== Proof.AggBridge.lean ====
/-
  The two programs aggregate the same way.

  Stage by stage — the messages' end points, the wrapped indices, the degrees, the normalisers, the scales, the messages,
  their sum into the targets — the kernel's program and the reference apply the same operation with the same dimension
  record to the same operands; only the programs' namespaces differ, and the kernel's narrowing of x·W to the short format
  before the gather and widening after it, which on the extended reals are the identity. So the aggregation is one
  function of the node features, the edge list and the convolution's weights, and the fused stack and the reference's
  dense layers start from the same array.
-/
import proofs.«166732_j85298050499264_2_alg».proof.Proof.KernelAggDefs
import proofs.«166732_j85298050499264_2_alg».proof.Proof.RefReadPatched

noncomputable section

namespace Cert.KernelIdeal.Hand

open Cert.KernelIdeal Idealize.ShloMosaic

variable (x : (⟨S50000x128, .f32⟩ : BufTy).Contents (Elt Ideal)) (e : (⟨S2x800000, .i32⟩ : BufTy).Contents (Elt Ideal)) (W : (⟨S128x128, .f32⟩ : BufTy).Contents (Elt Ideal))

/-- The messages' sources. -/
theorem src_eq : srcK (F := Ideal) e = Cert.ReferenceIdeal.ReadP.val_main_v3 (F := Ideal) e := rfl

/-- The messages' targets. -/
theorem dst_eq : dstK (F := Ideal) e = Cert.ReferenceIdeal.ReadP.val_main_v7 (F := Ideal) e := rfl

/-- The wrapped sources, as the normalisers' gather reads them. -/
theorem wrap_src_eq : wrapK (F := Ideal) (srcK (F := Ideal) e) = Cert.ReferenceIdeal.ReadP.val_main_v23 (F := Ideal) e := by
  rw [src_eq]; rfl

/-- The wrapped sources, as the features' gather reads them. -/
theorem wrap_src_eq' : wrapK (F := Ideal) (srcK (F := Ideal) e) = Cert.ReferenceIdeal.ReadP.val_main_v38 (F := Ideal) e := by
  rw [src_eq]; rfl

/-- The wrapped targets. -/
theorem wrap_dst_eq : wrapK (F := Ideal) (dstK (F := Ideal) e) = Cert.ReferenceIdeal.ReadP.val_main_v30 (F := Ideal) e := by
  rw [dst_eq]; rfl

/-- The degrees. -/
theorem deg_eq : degK (F := Ideal) e = Cert.ReferenceIdeal.ReadP.val_main_v12 (F := Ideal) e := by
  unfold degK Cert.ReferenceIdeal.ReadP.val_main_v12 Cert.ReferenceIdeal.ReadP.val_main_v11
  rw [dst_eq]
  rfl

/-- The normalisers. -/
theorem dinv_eq : dinvK (F := Ideal) e = Cert.ReferenceIdeal.ReadP.val_main_v18 (F := Ideal) e := by
  unfold dinvK Cert.ReferenceIdeal.ReadP.val_main_v18 Cert.ReferenceIdeal.ReadP.val_main_v14 Cert.ReferenceIdeal.ReadP.val_main_v17 Cert.ReferenceIdeal.ReadP.val_main_v16
  rw [deg_eq]
  rfl

/-- The messages' scales. -/
theorem norm_eq : normK (F := Ideal) e = Cert.ReferenceIdeal.ReadP.val_main_v33 (F := Ideal) e := by
  unfold normK Cert.ReferenceIdeal.ReadP.val_main_v33 Cert.ReferenceIdeal.ReadP.val_main_v25 Cert.ReferenceIdeal.ReadP.val_main_v32 Cert.ReferenceIdeal.ReadP.val_main_v24 Cert.ReferenceIdeal.ReadP.val_main_v31
  rw [dinv_eq, wrap_src_eq, wrap_dst_eq]
  rfl

/-- The messages: narrowing x·W before the gather and widening after it change nothing. -/
theorem msgs_eq : msgsK (F := Ideal) x e W = Cert.ReferenceIdeal.ReadP.val_main_v43 (F := Ideal) x e W := by
  unfold msgsK Cert.ReferenceIdeal.ReadP.val_main_v43 Cert.ReferenceIdeal.ReadP.val_main_v42 Cert.ReferenceIdeal.ReadP.val_main_v41 Cert.ReferenceIdeal.ReadP.val_main_v40 Cert.ReferenceIdeal.ReadP.val_main_v39
  rw [norm_eq, wrap_src_eq']
  rfl

/-- The aggregation. -/
theorem agg_eq : aggK (F := Ideal) x e W = Cert.ReferenceIdeal.ReadP.val_main_v46 (F := Ideal) x e W := by
  unfold aggK Cert.ReferenceIdeal.ReadP.val_main_v46 Cert.ReferenceIdeal.ReadP.val_main_v45
  rw [msgs_eq, dst_eq]
  rfl

end Cert.KernelIdeal.Hand

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.KernelLayers.lean ====
/-
  The kernel body's arithmetic on one block of 2000 rows, read entry by entry.

  The body adds the convolution's bias to its block of aggregated features and rectifies; then, three times, it multiplies
  by a weight matrix into a zero accumulator, adds the layer's bias (a vector made a row and spread over the 2000 rows),
  and rectifies; it ends with the read-out product and its bias. The narrowing of each activation and of each weight matrix
  to the short format changes nothing on the extended reals. So at (p, k) each layer is the sum over the previous layer's
  features of row p, and the stored payload at (p, 0) is the whole stack (Cert.Mlp.row) on row p of the block.
-/
import proofs.«166732_j85298050499264_2_alg».proof.Proof.Gen.KernelIdeal.Skeleton
import proofs.«166732_j85298050499264_2_alg».proof.Proof.MlpSpec
import proofs.«166732_j85298050499264_2_alg».proof.Proof.LibDotRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The three products' dimension records are plain rows × columns products -/

theorem plain_in : DotRead.Plain dot_S2000x128_S128x500_S2000x500_1_0_0_1_n_n where
  rank := rfl
  size := rfl
  lhs0 := fun i q => by
    unfold DotDims.lhsIdx
    rw [dif_neg (show ¬(0 : Fin S2000x128.rank) ∈ dot_S2000x128_S128x500_S2000x500_1_0_0_1_n_n.lhsBatch by decide), dif_pos (show (0 : Fin S2000x128.rank) ∈ dot_S2000x128_S128x500_S2000x500_1_0_0_1_n_n.lhsNonContracting by decide)]
    rfl
  lhs1 := fun i q => dot_S2000x128_S128x500_S2000x500_1_0_0_1_n_n.lhsIdx_val_of_single rfl i q
  rhs0 := fun i q => dot_S2000x128_S128x500_S2000x500_1_0_0_1_n_n.rhsIdx_val_of_single rfl i q
  rhs1 := fun i q => by
    unfold DotDims.rhsIdx
    rw [dif_neg (show ¬(1 : Fin S128x500.rank) ∈ dot_S2000x128_S128x500_S2000x500_1_0_0_1_n_n.rhsBatch by decide), dif_pos (show (1 : Fin S128x500.rank) ∈ dot_S2000x128_S128x500_S2000x500_1_0_0_1_n_n.rhsNonContracting by decide)]
    rfl

theorem plain_hid : DotRead.Plain dot_S2000x500_S500x500_S2000x500_1_0_0_1_n_n where
  rank := rfl
  size := rfl
  lhs0 := fun i q => by
    unfold DotDims.lhsIdx
    rw [dif_neg (show ¬(0 : Fin S2000x500.rank) ∈ dot_S2000x500_S500x500_S2000x500_1_0_0_1_n_n.lhsBatch by decide), dif_pos (show (0 : Fin S2000x500.rank) ∈ dot_S2000x500_S500x500_S2000x500_1_0_0_1_n_n.lhsNonContracting by decide)]
    rfl
  lhs1 := fun i q => dot_S2000x500_S500x500_S2000x500_1_0_0_1_n_n.lhsIdx_val_of_single rfl i q
  rhs0 := fun i q => dot_S2000x500_S500x500_S2000x500_1_0_0_1_n_n.rhsIdx_val_of_single rfl i q
  rhs1 := fun i q => by
    unfold DotDims.rhsIdx
    rw [dif_neg (show ¬(1 : Fin S500x500.rank) ∈ dot_S2000x500_S500x500_S2000x500_1_0_0_1_n_n.rhsBatch by decide), dif_pos (show (1 : Fin S500x500.rank) ∈ dot_S2000x500_S500x500_S2000x500_1_0_0_1_n_n.rhsNonContracting by decide)]
    rfl

theorem plain_out : DotRead.Plain dot_S2000x500_S500x1_S2000x1_1_0_0_1_n_n where
  rank := rfl
  size := rfl
  lhs0 := fun i q => by
    unfold DotDims.lhsIdx
    rw [dif_neg (show ¬(0 : Fin S2000x500.rank) ∈ dot_S2000x500_S500x1_S2000x1_1_0_0_1_n_n.lhsBatch by decide), dif_pos (show (0 : Fin S2000x500.rank) ∈ dot_S2000x500_S500x1_S2000x1_1_0_0_1_n_n.lhsNonContracting by decide)]
    rfl
  lhs1 := fun i q => dot_S2000x500_S500x1_S2000x1_1_0_0_1_n_n.lhsIdx_val_of_single rfl i q
  rhs0 := fun i q => dot_S2000x500_S500x1_S2000x1_1_0_0_1_n_n.rhsIdx_val_of_single rfl i q
  rhs1 := fun i q => by
    unfold DotDims.rhsIdx
    rw [dif_neg (show ¬(1 : Fin S500x1.rank) ∈ dot_S2000x500_S500x1_S2000x1_1_0_0_1_n_n.rhsBatch by decide), dif_pos (show (1 : Fin S500x1.rank) ∈ dot_S2000x500_S500x1_S2000x1_1_0_0_1_n_n.rhsNonContracting by decide)]
    rfl

/-! ## One step of the body at an entry -/

/-- The rectifier's zero: the scalar constant the body splats is the real number 0. -/
theorem zero_splat : (Scalar.ofBits (F := Ideal) .f32 0x00000000#32 : EReal) = 0 := Ideal.ofBits_zero_f32

/-- The first step at (p, j): the block's entry plus the bias at j, rectified. -/
theorem step0 (x : FVec Ideal S2000x128 .f32) (cb : FVec Ideal S128 .f32) (p : Fin 2000) (j : Fin 128) :
    (truncf .bf16 (maximumf (addf (shapeCast S2000x128 x shapeCasts_S2000x128_S2000x128)
        (broadcastTo S2000x128 (shapeCast S1x128 cb shapeCasts_S128_S1x128) broadcasts_S1x128_S2000x128))
        (broadcast S2000x128 (Scalar.ofBits (F := Ideal) .f32 0x00000000#32))) bitsLt_bf16_f32 : FVec Ideal S2000x128 .bf16) (ix2 p j)
      = Mlp.rect0 cb (fun j => x (ix2 p j)) j := by
  rw [truncf_apply, maximumf_apply, addf_apply, broadcast_apply, shapeCast_self, broadcastTo_1b_ab_apply, shapeCast_a_1a_apply, zero_splat]
  rfl

/-- The first hidden layer at (p, k). -/
theorem step_in (h : FVec Ideal S2000x128 .bf16) (W : FVec Ideal S128x500 .bf16) (b : FVec Ideal S500 .f32) (p : Fin 2000) (k : Fin 500) :
    (truncf .bf16 (maximumf (addf (matmul dot_S2000x128_S128x500_S2000x500_1_0_0_1_n_n none h (shapeCast S128x500 W shapeCasts_S128x500_S128x500) (constant (F := Ideal) S2000x500 .f32 0x00000000#32))
        (broadcastTo S2000x500 (shapeCast S1x500 b shapeCasts_S500_S1x500) broadcasts_S1x500_S2000x500))
        (broadcast S2000x500 (Scalar.ofBits (F := Ideal) .f32 0x00000000#32))) bitsLt_bf16_f32 : FVec Ideal S2000x500 .bf16) (ix2 p k)
      = Mlp.layer W b (fun j => h (ix2 p j)) k := by
  rw [truncf_apply, maximumf_apply, addf_apply, broadcast_apply, shapeCast_self, broadcastTo_1b_ab_apply, shapeCast_a_1a_apply, zero_splat,
    DotRead.matmul_zero_apply _ plain_in]
  rfl

/-- A 500 → 500 hidden layer at (p, k). -/
theorem step_hid (h : FVec Ideal S2000x500 .bf16) (W : FVec Ideal S500x500 .bf16) (b : FVec Ideal S500 .f32) (p : Fin 2000) (k : Fin 500) :
    (truncf .bf16 (maximumf (addf (matmul dot_S2000x500_S500x500_S2000x500_1_0_0_1_n_n none h (shapeCast S500x500 W shapeCasts_S500x500_S500x500) (constant (F := Ideal) S2000x500 .f32 0x00000000#32))
        (broadcastTo S2000x500 (shapeCast S1x500 b shapeCasts_S500_S1x500) broadcasts_S1x500_S2000x500))
        (broadcast S2000x500 (Scalar.ofBits (F := Ideal) .f32 0x00000000#32))) bitsLt_bf16_f32 : FVec Ideal S2000x500 .bf16) (ix2 p k)
      = Mlp.layer W b (fun j => h (ix2 p j)) k := by
  rw [truncf_apply, maximumf_apply, addf_apply, broadcast_apply, shapeCast_self, broadcastTo_1b_ab_apply, shapeCast_a_1a_apply, zero_splat,
    DotRead.matmul_zero_apply _ plain_hid]
  rfl

/-- The read-out at (p, 0). -/
theorem step_out (h : FVec Ideal S2000x500 .bf16) (Wo : FVec Ideal S500x1 .bf16) (bo : FVec Ideal S1 .f32) (p : Fin 2000) :
    (addf (matmul dot_S2000x500_S500x1_S2000x1_1_0_0_1_n_n none h (shapeCast S500x1 Wo shapeCasts_S500x1_S500x1) (constant (F := Ideal) S2000x1 .f32 0x00000000#32))
        (broadcastTo S2000x1 (shapeCast S1x1 bo shapeCasts_S1_S1x1) broadcasts_S1x1_S2000x1) : FVec Ideal S2000x1 .f32) (ix2 p (0 : Fin 1))
      = Mlp.readout Wo bo (fun j => h (ix2 p j)) := by
  rw [addf_apply, shapeCast_self, broadcastTo_1b_ab_apply, shapeCast_a_1a_apply, DotRead.matmul_zero_apply _ plain_out]
  rfl

/-! ## The stored payload -/

/-- The last hidden activation of the block at (p, k): three layers over the rectified, biased features of row p. -/
theorem hidden_apply (v0 : FVec Ideal S2000x128 .f32) (v2 : FVec Ideal S128 .f32) (v9 : FVec Ideal S128x500 .bf16) (v12 : FVec Ideal S500 .f32)
    (v19 : FVec Ideal S500x500 .bf16) (v22 : FVec Ideal S500 .f32) (v29 : FVec Ideal S500x500 .bf16) (v32 : FVec Ideal S500 .f32) (p : Fin 2000) (k : Fin 500) :
    k0_pay2 (F := Ideal) v0 v2 v9 v12 v19 v22 v29 v32 (ix2 p k)
      = Mlp.layer v29 v32 (Mlp.layer v19 v22 (Mlp.layer v9 v12 (Mlp.rect0 v2 (fun j => v0 (ix2 p j))))) k := by
  unfold k0_pay2
  refine (step_hid _ v29 v32 p k).trans ?_
  refine congrArg (fun h => Mlp.layer v29 v32 h k) (funext fun j3 => ?_)
  refine (step_hid _ v19 v22 p j3).trans ?_
  refine congrArg (fun h => Mlp.layer v19 v22 h j3) (funext fun j2 => ?_)
  refine (step_in _ v9 v12 p j2).trans ?_
  refine congrArg (fun h => Mlp.layer v9 v12 h j2) (funext fun j1 => ?_)
  exact step0 v0 v2 p j1

/-- The stored payload at (p, 0) is the whole stack on row p of the block. -/
theorem payload_apply (v0 : FVec Ideal S2000x128 .f32) (v2 : FVec Ideal S128 .f32) (v9 : FVec Ideal S128x500 .bf16) (v12 : FVec Ideal S500 .f32)
    (v19 : FVec Ideal S500x500 .bf16) (v22 : FVec Ideal S500 .f32) (v29 : FVec Ideal S500x500 .bf16) (v32 : FVec Ideal S500 .f32)
    (v39 : FVec Ideal S500x1 .bf16) (v42 : FVec Ideal S1 .f32) (p : Fin 2000) :
    k0_pay1 (F := Ideal) (k0_pay2 (F := Ideal) v0 v2 v9 v12 v19 v22 v29 v32) v39 v42 (ix2 p (0 : Fin 1))
      = Mlp.row v2 v9 v12 v19 v22 v29 v32 v39 v42 (fun j => v0 (ix2 p j)) := by
  unfold k0_pay1
  refine (step_out _ v39 v42 p).trans ?_
  unfold Mlp.row
  exact congrArg (Mlp.readout v39 v42) (funext fun k => hidden_apply v0 v2 v9 v12 v19 v22 v29 v32 p k)

end Cert.KernelIdeal.Hand

end
-- ==== Proof.KernelBlocks.lean ====
/-
  The windows of the fused stack's launch, read as rows of arrays.

  The grid has 25 points. Point t stages rows 2000 t … 2000 t + 1999 of the aggregated features (window 0) and writes back
  rows 2000 t … 2000 t + 1999 of the one-column result (window 10); the bias vectors and the narrowed weight matrices
  (windows 1 … 9) are resident: their block index is 0 on every axis at every point, and the block is the whole array.
  Everything here is about the index maps alone, so the arrays are arbitrary. The 25 result blocks tile the 50000 rows:
  row r lies in block r / 2000.
-/
import proofs.«166732_j85298050499264_2_alg».proof.Proof.Gen.KernelIdeal.Launch
import proofs.«166732_j85298050499264_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

/-! ## The index maps over the grid -/

/-- The moving windows: the features' block and the result's block at point t are block t along the rows, block 0 along
    the columns (decided over the 25 points). -/
theorem idx_moving : ∀ t : Fin cfg0.N, win0_0.index t (0 : Fin 2) = t.val ∧ win0_0.index t (1 : Fin 2) = 0
    ∧ win0_10.index t (0 : Fin 2) = t.val ∧ win0_10.index t (1 : Fin 2) = 0 :=
  (by decide +kernel : ∀ t : Fin grid0.N, _)

/-- The resident windows: block index 0 on every axis at every point (decided over the 25 points). -/
theorem idx_fixed : ∀ t : Fin cfg0.N, win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## Reading an array through a window's block -/

/-- Window 1 is resident: read through its block at any point, an array is itself. -/
theorem read_resident1 (t : Fin cfg0.N) (A : S128.Idx → EReal) :
    (((cfg0.win 1).blk t).view.read (Elt Ideal) A : S128.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_1.index t (0 : Fin 1) * 128 + 1 * (y 0).val = (y 0).val; rw [f1_0]; omega

/-- Window 2 is resident: read through its block at any point, an array is itself. -/
theorem read_resident2 (t : Fin cfg0.N) (A : S128x500.Idx → EReal) :
    (((cfg0.win 2).blk t).view.read (Elt Ideal) A : S128x500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_2.index t (0 : Fin 2) * 128 + 1 * (y 0).val = (y 0).val; rw [f2_0]; omega
  | ⟨1, _⟩ => show win0_2.index t (1 : Fin 2) * 500 + 1 * (y 1).val = (y 1).val; rw [f2_1]; omega

/-- Window 3 is resident: read through its block at any point, an array is itself. -/
theorem read_resident3 (t : Fin cfg0.N) (A : S500.Idx → EReal) :
    (((cfg0.win 3).blk t).view.read (Elt Ideal) A : S500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_3.index t (0 : Fin 1) * 500 + 1 * (y 0).val = (y 0).val; rw [f3_0]; omega

/-- Window 4 is resident: read through its block at any point, an array is itself. -/
theorem read_resident4 (t : Fin cfg0.N) (A : S500x500.Idx → EReal) :
    (((cfg0.win 4).blk t).view.read (Elt Ideal) A : S500x500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_4.index t (0 : Fin 2) * 500 + 1 * (y 0).val = (y 0).val; rw [f4_0]; omega
  | ⟨1, _⟩ => show win0_4.index t (1 : Fin 2) * 500 + 1 * (y 1).val = (y 1).val; rw [f4_1]; omega

/-- Window 5 is resident: read through its block at any point, an array is itself. -/
theorem read_resident5 (t : Fin cfg0.N) (A : S500.Idx → EReal) :
    (((cfg0.win 5).blk t).view.read (Elt Ideal) A : S500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_5.index t (0 : Fin 1) * 500 + 1 * (y 0).val = (y 0).val; rw [f5_0]; omega

/-- Window 6 is resident: read through its block at any point, an array is itself. -/
theorem read_resident6 (t : Fin cfg0.N) (A : S500x500.Idx → EReal) :
    (((cfg0.win 6).blk t).view.read (Elt Ideal) A : S500x500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_6.index t (0 : Fin 2) * 500 + 1 * (y 0).val = (y 0).val; rw [f6_0]; omega
  | ⟨1, _⟩ => show win0_6.index t (1 : Fin 2) * 500 + 1 * (y 1).val = (y 1).val; rw [f6_1]; omega

/-- Window 7 is resident: read through its block at any point, an array is itself. -/
theorem read_resident7 (t : Fin cfg0.N) (A : S500.Idx → EReal) :
    (((cfg0.win 7).blk t).view.read (Elt Ideal) A : S500.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_7.index t (0 : Fin 1) * 500 + 1 * (y 0).val = (y 0).val; rw [f7_0]; omega

/-- Window 8 is resident: read through its block at any point, an array is itself. -/
theorem read_resident8 (t : Fin cfg0.N) (A : S500x1.Idx → EReal) :
    (((cfg0.win 8).blk t).view.read (Elt Ideal) A : S500x1.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_8.index t (0 : Fin 2) * 500 + 1 * (y 0).val = (y 0).val; rw [f8_0]; omega
  | ⟨1, _⟩ => show win0_8.index t (1 : Fin 2) * 1 + 1 * (y 1).val = (y 1).val; rw [f8_1]; omega

/-- Window 9 is resident: read through its block at any point, an array is itself. -/
theorem read_resident9 (t : Fin cfg0.N) (A : S1.Idx → EReal) :
    (((cfg0.win 9).blk t).view.read (Elt Ideal) A : S1.Idx → EReal) = A := by
  obtain ⟨f1_0, f2_0, f2_1, f3_0, f4_0, f4_1, f5_0, f6_0, f6_1, f7_0, f8_0, f8_1, f9_0⟩ := idx_fixed t
  funext y
  rw [View.read_apply]
  show A _ = A y
  refine congrArg A (funext fun a => Fin.ext ?_)
  match a with
  | ⟨0, _⟩ => show win0_9.index t (0 : Fin 1) * 1 + 1 * (y 0).val = (y 0).val; rw [f9_0]; omega

/-- Row p of the features' block at point t is the array's row at which the result's block holds its row p. -/
theorem read_features (t : Fin cfg0.N) (A : S50000x128.Idx → EReal) (y : ((cfg0.win 10).xblock (cfg0.grid.coords t)).Idx)
    (p : Fin 2000) (hp : p.val = ((y : S2000x1.Idx) 0).val) (j : Fin 128) :
    (((cfg0.win 0).blk t).view.read (Elt Ideal) A : S2000x128.Idx → EReal) (ix2 p j)
      = A (ix2 ((((cfg0.win 10).blk t).view.emb y : S50000x1.Idx) 0) j) := by
  obtain ⟨e0, e1, e2, e3⟩ := idx_moving t
  rw [View.read_apply]
  show A _ = A _
  refine congrArg A (funext fun a => Fin.ext ?_)
  match a with
  | ⟨0, _⟩ => show win0_0.index t (0 : Fin 2) * 2000 + 1 * p.val = win0_10.index t (0 : Fin 2) * 2000 + 1 * ((y : S2000x1.Idx) 0).val; rw [e0, e2, hp]
  | ⟨1, _⟩ => show win0_0.index t (1 : Fin 2) * 128 + 1 * j.val = j.val; rw [e1]; omega

/-! ## The result's blocks tile its rows -/

/-- An index of the result array is in point t's block iff each coordinate is in the block's range on its axis. -/
theorem mem_blk (t : Fin cfg0.N) (i : S50000x1.Idx) :
    i ∈ ((cfg0.win 10).blk t).view.set ↔ ∀ a : Fin 2, win0_10.index t a * S2000x1.size a ≤ (i a).val ∧ (i a).val < win0_10.index t a * S2000x1.size a + S2000x1.size a := by
  show i ∈ ((View.whole main_v53).slice (win0_10.rect t)).set ↔ _
  rw [View.set_slice_whole, Rect.mem_set_unit]
  exact Iff.rfl

/-- Every row of the result lies in some point's block: row r in block r / 2000. -/
theorem cover (i : S50000x1.Idx) : ∃ t : Fin cfg0.N, (cfg0.win 10).flush t = true ∧ i ∈ ((cfg0.win 10).blk t).view.set := by
  have hN : cfg0.N = 25 := N_0
  have hi0 : (i 0).val < 50000 := (i 0).isLt
  have hi1 : (i 1).val < 1 := (i 1).isLt
  have ht : (i 0).val / 2000 < cfg0.N := by rw [hN]; omega
  refine ⟨⟨(i 0).val / 2000, ht⟩, flush0_10 _, ?_⟩
  rw [mem_blk]
  obtain ⟨e0, e1, e2, e3⟩ := idx_moving ⟨(i 0).val / 2000, ht⟩
  intro a
  match a with
  | ⟨0, _⟩ =>
    show win0_10.index ⟨(i 0).val / 2000, ht⟩ (0 : Fin 2) * 2000 ≤ (i 0).val ∧ (i 0).val < win0_10.index ⟨(i 0).val / 2000, ht⟩ (0 : Fin 2) * 2000 + 2000
    rw [e2]
    show (i 0).val / 2000 * 2000 ≤ (i 0).val ∧ (i 0).val < (i 0).val / 2000 * 2000 + 2000
    omega
  | ⟨1, _⟩ =>
    show win0_10.index ⟨(i 0).val / 2000, ht⟩ (1 : Fin 2) * 1 ≤ (i 1).val ∧ (i 1).val < win0_10.index ⟨(i 0).val / 2000, ht⟩ (1 : Fin 2) * 1 + 1
    rw [e3]
    omega

end Cert.KernelIdeal.Hand

end
-- ==== Proof.KernelValue.lean ====
/-
  From the kernel's blocks to its result array.

  The body's payload at row p of a block is the stack on that row (KernelLayers); the features' block at point t holds the
  rows the result's block holds, and the other windows hold their whole arrays (KernelBlocks). So what point t writes back is
  block t of ONE function of the arrays as the region finds them — entry (r, 0) is the stack on row r of the aggregated
  features — and since the 25 blocks tile the rows, the result array ends holding that function.
-/
import proofs.«166732_j85298050499264_2_alg».proof.Proof.Gen.KernelIdeal.Value
import proofs.«166732_j85298050499264_2_alg».proof.Proof.KernelLayers
import proofs.«166732_j85298050499264_2_alg».proof.Proof.KernelBlocks
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem off2 : (![0, 0] : Fin 2 → Nat) = fun _ => 0 := funext fun a => by fin_cases a <;> rfl
theorem off1 : (![0] : Fin 1 → Nat) = fun _ => 0 := funext fun a => by fin_cases a <;> rfl

/-- What the body leaves in the result's staging buffer at point t is block t of the stack applied row by row to a features
    array A, whenever the features' block holds the rows of A that the result's block holds (`h0`) and the other windows'
    blocks are whole arrays. -/
theorem block_out (t : Fin cfg0.N) (A : S50000x128.Idx → EReal) (x0 : FVec Ideal S2000x128 .f32) (cb : FVec Ideal S128 .f32)
    (W1 : FVec Ideal S128x500 .bf16) (b1 : FVec Ideal S500 .f32) (W2 : FVec Ideal S500x500 .bf16) (b2 : FVec Ideal S500 .f32)
    (W3 : FVec Ideal S500x500 .bf16) (b3 : FVec Ideal S500 .f32) (Wo : FVec Ideal S500x1 .bf16) (bo : FVec Ideal S1 .f32)
    (h0 : ∀ (y : ((cfg0.win 10).xblock (cfg0.grid.coords t)).Idx) (p : Fin 2000), p.val = ((y : S2000x1.Idx) 0).val → ∀ j : Fin 128,
      x0 (ix2 p j) = A (ix2 ((((cfg0.win 10).blk t).view.emb y : S50000x1.Idx) 0) j)) :
    (cfg0.win 10).cut (grid0.coords t) (out0_10 (F := Ideal) x0 cb W1 b1 W2 b2 W3 b3 Wo bo)
      = ((cfg0.win 10).blk t).view.read (Elt Ideal) (Mlp.out A cb W1 b1 W2 b2 W3 b3 Wo bo) := by
  unfold out0_10
  rw [View.canon_unit_zero off2]
  simp only [View.ld_unit_zero (S := S2000x128) off2, View.ld_unit_zero (S := S128x500) off2, View.ld_unit_zero (S := S500x500) off2,
    View.ld_unit_zero (S := S500x1) off2, View.ld_unit_zero (S := S128) off1, View.ld_unit_zero (S := S500) off1, View.ld_unit_zero (S := S1) off1]
  funext y
  rw [View.read_apply]
  obtain ⟨p, u, hy⟩ : ∃ (p : Fin 2000) (u : Fin 1), (y : S2000x1.Idx) = ix2 p u := ⟨y 0, y 1, eq_ix2 _⟩
  obtain rfl : u = 0 := Subsingleton.elim _ _
  have hp : p.val = ((y : S2000x1.Idx) 0).val := (congrArg (fun z : S2000x1.Idx => (z 0).val) hy).symm
  show k0_pay1 (F := Ideal) (k0_pay2 (F := Ideal) x0 cb W1 b1 W2 b2 W3 b3) Wo bo (y : S2000x1.Idx)
      = Mlp.out A cb W1 b1 W2 b2 W3 b3 Wo bo (((cfg0.win 10).blk t).view.emb y)
  refine (congrArg (k0_pay1 (F := Ideal) (k0_pay2 (F := Ideal) x0 cb W1 b1 W2 b2 W3 b3) Wo bo) hy).trans ?_
  rw [payload_apply]
  unfold Mlp.out
  exact congrArg (Mlp.row cb W1 b1 W2 b2 W3 b3 Wo bo) (funext fun j => h0 y p hp j)

variable (m : (ℓ : Loc nD τ sig) → Buf (Elt Ideal) ℓ) (ρ : Dev nD → PrngReg)

/-- The result as one function of the arrays the region finds: entry (r, 0) is the stack on row r of the features. -/
def result (c : Dev nD) : Buf (Elt Ideal) ((c : Thread nD τ).loc main_v53) :=
  Mlp.out (V m c main_v48) (V m c main_arg3) (V m c main_v49) (V m c main_arg5) (V m c main_v50) (V m c main_arg7) (V m c main_v51) (V m c main_arg9)
    (V m c main_v52) (V m c main_arg11)

/-- What point t writes back is block t of `result`. -/
theorem flushed_eq (c : Dev nD) (t : Fin cfg0.N) :
    (dats m 0 c).flushed 10 t = ((cfg0.win 10).blk t).view.read (Elt Ideal) (result m c) := by
  rw [flushed10]
  unfold iblk result
  have e1 := read_resident1 t (V m c main_arg3)
  have e2 := read_resident2 t (V m c main_v49)
  have e3 := read_resident3 t (V m c main_arg5)
  have e4 := read_resident4 t (V m c main_v50)
  have e5 := read_resident5 t (V m c main_arg7)
  have e6 := read_resident6 t (V m c main_v51)
  have e7 := read_resident7 t (V m c main_arg9)
  have e8 := read_resident8 t (V m c main_v52)
  have e9 := read_resident9 t (V m c main_arg11)
  have key := block_out t (V m c main_v48) (((cfg0.win 0).blk t).view.read (Elt Ideal) (V m c main_v48)) (V m c main_arg3) (V m c main_v49)
    (V m c main_arg5) (V m c main_v50) (V m c main_arg7) (V m c main_v51) (V m c main_arg9) (V m c main_v52) (V m c main_arg11)
    (fun y p hp j => read_features t (V m c main_v48) y p hp j)
  refine Eq.trans ?_ key
  exact congrArg ((cfg0.win 10).cut (grid0.coords t))
    (congr (congr (congr (congr (congr (congr (congr (congr (congrArg (out0_10 (F := Ideal) (((cfg0.win 0).blk t).view.read (Elt Ideal) (V m c main_v48))) e1) e2) e3) e4) e5) e6) e7) e8) e9)

/-- The result array after the run. -/
theorem final (c : Dev nD) : (dats m 0 c).arrAt 10 cfg0.N = result m c :=
  (dats m 0 c).arrAt_eq_of_cover 10 (result m c) (fun t _ => flushed_eq m c t) cover

end Cert.KernelIdeal.Hand

end
-- ==== Proof.KernelAgg.lean ====
/-
  What the region finds in the features' array when it is entered: the program's aggregation (KernelAggDefs) of the three
  arguments it depends on. The host operations before the launch are a straight line; what each buffer holds after the line
  is the composition of the operations that write it and its operands, read back from the launch contents.
-/
import proofs.«166732_j85298050499264_2_alg».proof.Proof.KernelAggDefs

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The aggregated features as the region finds them. -/
theorem entry_features (c : Dev nD) :
    (V m c main_v48 : S50000x128.Idx → EReal)
      = aggK (F := Ideal) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  simp only [TRef.toBuf, TRef.ofBuf]
  repeat rw [cast_eq]
  unfold aggK msgsK normK dinvK degK wrapK srcK dstK endsK
  rfl

end Cert.KernelIdeal.Hand

end
-- ==== Proof.KernelEntry.lean ====
/-
  The weight matrices the region finds when it is entered.

  The host narrows each weight matrix of the dense stack to the short format before the launch. On the extended reals a
  change of format is the identity, so each narrowed matrix the region finds is the argument itself. (The bias vectors are
  staged as they are: the generated launch facts say so.)
-/
import proofs.«166732_j85298050499264_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first layer's weights as the region finds them: the argument (narrowing is the identity). -/
theorem entry_W1 (c : Dev nD) : (V m c main_v49 : S128x500.Idx → EReal) = (m ((c : Thread nD τ).loc main_arg4)) := by
  dsimp only [V]
  simp only [hostOps0, hostOps0_1, hostOps0_2, List.flatten_cons, List.flatten_nil, List.append_nil, List.cons_append, List.nil_append]
  after_results_simp
  rfl

/-- The second layer's weights as the region finds them. -/
theorem entry_W2 (c : Dev nD) : (V m c main_v50 : S500x500.Idx → EReal) = (m ((c : Thread nD τ).loc main_arg6)) := by
  dsimp only [V]
  simp only [hostOps0, hostOps0_1, hostOps0_2, List.flatten_cons, List.flatten_nil, List.append_nil, List.cons_append, List.nil_append]
  after_results_simp
  rfl

/-- The third layer's weights as the region finds them. -/
theorem entry_W3 (c : Dev nD) : (V m c main_v51 : S500x500.Idx → EReal) = (m ((c : Thread nD τ).loc main_arg8)) := by
  dsimp only [V]
  simp only [hostOps0, hostOps0_1, hostOps0_2, List.flatten_cons, List.flatten_nil, List.append_nil, List.cons_append, List.nil_append]
  after_results_simp
  rfl

/-- The read-out's weights as the region finds them. -/
theorem entry_Wo (c : Dev nD) : (V m c main_v52 : S500x1.Idx → EReal) = (m ((c : Thread nD τ).loc main_arg10)) := by
  dsimp only [V]
  simp only [hostOps0, hostOps0_1, hostOps0_2, List.flatten_cons, List.flatten_nil, List.append_nil, List.cons_append, List.nil_append]
  after_results_simp
  rfl

end Cert.KernelIdeal.Hand

end
-- ==== Proof.KernelRun.lean ====
/-
  The kernel's run, read: every weakly fair execution of the kernel's program ends with the result array holding, at (r, 0),
  the dense stack applied to row r of the program's own aggregation of the node features, the edge list and the
  convolution's weights, with the biases and weight matrices the arguments themselves; the arguments end unchanged.
-/
import proofs.«166732_j85298050499264_2_alg».proof.Proof.KernelValue
import proofs.«166732_j85298050499264_2_alg».proof.Proof.KernelAgg
import proofs.«166732_j85298050499264_2_alg».proof.Proof.KernelEntry

noncomputable section

namespace Cert.KernelIdeal.Hand

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- The result as a function of the arguments: each array the region finds is the aggregation, an argument, or an argument
    narrowed (which is the argument). -/
theorem result_args (c : Dev nD) :
    result m c = Mlp.out (aggK (F := Ideal) (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold result
  exact congr (congr (congr (congr (congr (congr (congr (congr (congr (congrArg Mlp.out (entry_features m c)) (V_main_arg3 m c)) (entry_W1 m c))
    (V_main_arg5 m c)) (entry_W2 m c)) (V_main_arg7 m c)) (entry_W3 m c)) (V_main_arg9 m c)) (entry_Wo m c)) (V_main_arg11 m c)

/-- The run. -/
theorem run : θ_run defs (onTc (τ := τ) (main (F := Ideal))) ⟨m, fun _ => 0, ρ⟩ fun r => ∀ c : Dev nD,
      r.2.mem ((c : Thread nD τ).loc main_v53) = Mlp.out (aggK (F := Ideal) (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (result_args m c)), (h c).2⟩) (run_blocks m ρ)

end Cert.KernelIdeal.Hand

end
-- ==== Proof.lean ====
/-
  The certificate: a graph convolution followed by a dense stack, fused, against the same computation written with jnp.

  Both programs first aggregate the node features over the graph — x·W gathered along the edges (self-loops added), scaled by
  the symmetric degree normalisation and summed into the targets. The kernel's program carries x·W through the short float
  format around the gather; on the extended reals that is the identity, so the two aggregations are one array A of the
  arguments (AggBridge). The reference then computes, for every node r,

      out r = readout (layer₃ (layer₂ (layer₁ (max (A r + c) 0))))      with  layer h = max (h·W + b) 0

  as whole-array operations (RefLayers); the kernel's program computes the same on 25 blocks of 2000 rows inside one launch,
  with the bias-add of the convolution moved into the launch and the weights narrowed to the short format (KernelLayers,
  KernelValue). Entry by entry the two are the same finite sums of the same products in the same order, so no algebraic law
  and no finiteness of the inputs is used: the results are equal as extended reals for all inputs.

  The frames of the two kernel programs are the generated ones; the reference's frame is its run with the result dropped;
  the idealization rewrote nothing, so there is nothing to preserve.
-/
import proofs.«166732_j85298050499264_2_alg».proof.Defs
import proofs.«166732_j85298050499264_2_alg».proof.Proof.Gen.Kernel
import proofs.«166732_j85298050499264_2_alg».proof.Proof.Gen.Kernel.Skeleton
import proofs.«166732_j85298050499264_2_alg».proof.Proof.Gen.Kernel.Launch
import proofs.«166732_j85298050499264_2_alg».proof.Proof.Gen.Kernel.Points
import proofs.«166732_j85298050499264_2_alg».proof.Proof.Gen.Kernel.Frame
import proofs.«166732_j85298050499264_2_alg».proof.Proof.Gen.KernelIdeal
import proofs.«166732_j85298050499264_2_alg».proof.Proof.Gen.KernelIdeal.Skeleton
import proofs.«166732_j85298050499264_2_alg».proof.Proof.Gen.KernelIdeal.Launch
import proofs.«166732_j85298050499264_2_alg».proof.Proof.Gen.KernelIdeal.Points
import proofs.«166732_j85298050499264_2_alg».proof.Proof.Gen.KernelIdeal.Frame
import proofs.«166732_j85298050499264_2_alg».proof.Proof.Gen.ReferenceIdeal
import proofs.«166732_j85298050499264_2_alg».proof.Proof.Gen.Pre_finite_inputs
import proofs.«166732_j85298050499264_2_alg».proof.Proof.Gen.KernelIdeal.Value
import proofs.«166732_j85298050499264_2_alg».proof.Proof.RefRunPatched
import proofs.«166732_j85298050499264_2_alg».proof.Proof.RefReadPatched
import proofs.«166732_j85298050499264_2_alg».proof.Proof.RefLayers
import proofs.«166732_j85298050499264_2_alg».proof.Proof.AggBridge
import proofs.«166732_j85298050499264_2_alg».proof.Proof.KernelRun
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- The idealization of the kernel's program rewrote no operation. -/
theorem preserves : Cert.preserves_Kernel_KernelIdeal := trivial

/-- From memories agreeing on the arguments both programs end with the dense stack applied to each row of the one
    aggregation: the kernel's result by its run read block by block, the reference's by its operations read entry by entry. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v69_eq, Cert.ReferenceIdeal.Hand.result_eq, a0, a1, a2, a3, a4, a5, a6, a7, a8, a9, a10, a11, Cert.KernelIdeal.Hand.agg_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
